-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x256 : Shape := ⟨4, ![32, 64, 64, 256]⟩
abbrev S256x256 : Shape := ⟨2, ![256, 256]⟩
abbrev S256 : Shape := ⟨1, ![256]⟩
abbrev S_ : Shape := ⟨0, ![]⟩

class Facts : Prop where
  bcast_S_S32x64x64x256 : S_.BroadcastsInDim S32x64x64x256 (![] : Fin 0 → Fin S32x64x64x256.rank)
  reducesTo_S32x64x64x256_S_d0_1_2_3 : S32x64x64x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x64x64x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S32x64x64x256 .f32 := Host.absf main_arg0
  let main_cst : FVec F S_ .f32 := constant S_ .f32 0x7F800000#32
  let main_v1 : FVec F S32x64x64x256 .f32 := broadcastInDim S32x64x64x256 ![] bcast_S_S32x64x64x256 main_cst
  let main_v2 : IVec S32x64x64x256 1 := cmpf .olt main_v0 main_v1
  let main_c : IVec S_ 1 := constantI S_ 1 1#1
  let main_v3 : IVec S_ 1 := (fun x v => Host.reduce IntOp.andi x v reducesTo_S32x64x64x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S32x64x64x256 : Shape := ⟨4, ![32, 64, 64, 256]⟩
abbrev S256x256 : Shape := ⟨2, ![256, 256]⟩
abbrev S256 : Shape := ⟨1, ![256]⟩
abbrev S1x16x64x256 : Shape := ⟨4, ![1, 16, 64, 256]⟩
abbrev S16x64x256 : Shape := ⟨3, ![16, 64, 256]⟩
abbrev S1024x256 : Shape := ⟨2, ![1024, 256]⟩
abbrev S1x256 : Shape := ⟨2, ![1, 256]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 10
  | .vmem => 12
  | .smem => 0
  | _ => 0

abbrev bufTy : (tb : Table) → Fin (tcTables nBuf tb) → BufTy
  | .hbm, ⟨0, _⟩ => ⟨S32x64x64x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S32x64x64x256, .f32⟩
  | .local _ .vmem, ⟨0, _⟩ => ⟨S1x16x64x256, .f32⟩
  | .local _ .vmem, ⟨1, _⟩ => ⟨S1x16x64x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1x16x64x256, .f32⟩
  | .local _ .vmem, ⟨11, _⟩ => ⟨S1x16x64x256, .f32⟩
  | _, _ => ⟨S32x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  bitsLt_bf16_f32 : FTy.bits .bf16 < FTy.bits .f32
  shapeCasts_S16x64x256_S1024x256 : S16x64x256.ShapeCasts S1024x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S16x64x256 : S1024x256.ShapeCasts S16x64x256
  reduces_S16x64x64_S16x64 : S16x64x64.Reduces [2] S16x64
  shapeCasts_S16x64_S16x64x1 : S16x64.ShapeCasts S16x64x1
  broadcasts_S16x64x1_S16x64x64 : S16x64x1.Broadcasts S16x64x64
  shapeCasts_S16x64x256_S1x16x64x256 : S16x64x256.ShapeCasts S1x16x64x256
  dot_S1024x256_S256x256_S1024x256_1_0_0_1_n_n_wf : DotDims.WF S1024x256 S256x256 S1024x256 [1] [0] [0] [1] [] []
  dot_S16x64x256_S16x64x256_S16x64x64_2_2_1_1_0_0_wf : DotDims.WF S16x64x256 S16x64x256 S16x64x64 [2] [2] [1] [1] [0] [0]
  dot_S16x64x64_S16x64x256_S16x64x256_2_1_1_2_0_0_wf : DotDims.WF S16x64x64 S16x64x256 S16x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x256.size a ≤ S32x64x64x256.size a
  hwx0_0 : ∀ i : grid0.Coords, EltTy.bits .f32 = 32 ∨ (Rect.block (s := S32x64x64x256) S1x16x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x64x256.size a ≤ S32x64x64x256.size a
  hwx0_9 : ∀ i : grid0.Coords, EltTy.bits .f32 = 32 ∨ (Rect.block (s := S32x64x64x256) S1x16x64x256.size (cc0_transform_9 i) (hinb0_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S16x64x256_S16x64x256_S16x64x64_2_2_1_1_0_0 : DotDims S16x64x256 S16x64x256 S16x64x64 where
  lhsContracting := [2]
  rhsContracting := [2]
  lhsNonContracting := [1]
  rhsNonContracting := [1]
  lhsBatch := [0]
  rhsBatch := [0]
  wf := dot_S16x64x256_S16x64x256_S16x64x64_2_2_1_1_0_0_wf
def dot_S16x64x64_S16x64x256_S16x64x256_2_1_1_2_0_0 : DotDims S16x64x64 S16x64x256 S16x64x256 where
  lhsContracting := [2]
  rhsContracting := [1]
  lhsNonContracting := [1]
  rhsNonContracting := [2]
  lhsBatch := [0]
  rhsBatch := [0]
  wf := dot_S16x64x64_S16x64x256_S16x64x256_2_1_1_2_0_0_wf

abbrev win0_0 : Pipeline.Window sig grid0 :=
  Pipeline.Window.ofSpec (Memref.whole main_arg0) S1x16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x16x64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64x64x256 : Shape := ⟨4, ![32, 64, 64, 256]⟩
abbrev S256x256 : Shape := ⟨2, ![256, 256]⟩
abbrev S256 : Shape := ⟨1, ![256]⟩
abbrev S1x1x1x256 : Shape := ⟨4, ![1, 1, 1, 256]⟩
abbrev S32x64x64x64 : Shape := ⟨4, ![32, 64, 64, 64]⟩
abbrev S_ : Shape := ⟨0, ![]⟩
abbrev S32x64x64 : Shape := ⟨3, ![32, 64, 64]⟩
abbrev S32x64x64x1 : Shape := ⟨4, ![32, 64, 64, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x64x64x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S32x64x64x256, .f32⟩
  | .hbm, ⟨10, _⟩ => ⟨S1x1x1x256, .f32⟩
  | .hbm, ⟨11, _⟩ => ⟨S32x64x64x256, .f32⟩
  | .hbm, ⟨12, _⟩ => ⟨S32x64x64x256, .f32⟩
  | .hbm, ⟨13, _⟩ => ⟨S32x64x64x256, .f32⟩
  | .hbm, ⟨14, _⟩ => ⟨S1x1x1x256, .f32⟩
  | .hbm, ⟨15, _⟩ => ⟨S32x64x64x256, .f32⟩
  | .hbm, ⟨16, _⟩ => ⟨S32x64x64x256, .f32⟩
  | .hbm, ⟨17, _⟩ => ⟨S32x64x64x256, .f32⟩
  | .hbm, ⟨18, _⟩ => ⟨S1x1x1x256, .f32⟩
  | .hbm, ⟨19, _⟩ => ⟨S32x64x64x256, .f32⟩
  | .hbm, ⟨20, _⟩ => ⟨S32x64x64x256, .f32⟩
  | .hbm, ⟨21, _⟩ => ⟨S32x64x64x64, .f32⟩
  | .hbm, ⟨22, _⟩ => ⟨S_, .f32⟩
  | .hbm, ⟨23, _⟩ => ⟨S32x64x64, .f32⟩
  | .hbm, ⟨24, _⟩ => ⟨S_, .f32⟩
  | .hbm, ⟨25, _⟩ => ⟨S32x64x64, .f32⟩
  | .hbm, ⟨26, _⟩ => ⟨S32x64x64, .f32⟩
  | .hbm, ⟨27, _⟩ => ⟨S32x64x64x1, .f32⟩
  | .hbm, ⟨28, _⟩ => ⟨S32x64x64x64, .f32⟩
  | .hbm, ⟨29, _⟩ => ⟨S32x64x64x64, .f32⟩
  | .hbm, ⟨30, _⟩ => ⟨S32x64x64x64, .f32⟩
  | .hbm, ⟨31, _⟩ => ⟨S_, .f32⟩
  | .hbm, ⟨32, _⟩ => ⟨S32x64x64, .f32⟩
  | .hbm, ⟨33, _⟩ => ⟨S32x64x64x1, .f32⟩
  | .hbm, ⟨34, _⟩ => ⟨S32x64x64x64, .f32⟩
  | .hbm, ⟨35, _⟩ => ⟨S32x64x64x64, .f32⟩
  | .hbm, ⟨36, _⟩ => ⟨S32x64x64x256, .f32⟩
  | .hbm, ⟨37, _⟩ => ⟨S32x64x64x256, .f32⟩
  | .hbm, ⟨38, _⟩ => ⟨S1x1x1x256, .f32⟩
  | .hbm, ⟨39, _⟩ => ⟨S32x64x64x256, .f32⟩
  | .hbm, ⟨40, _⟩ => ⟨S32x64x64x256, .f32⟩
  | _, _ => ⟨S32x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S32x64x64x256_0_1_2_3 : S1x1x1x256.BroadcastsInDim S32x64x64x256 (![0, 1, 2, 3] : Fin 4 → Fin S32x64x64x256.rank)
  reducesTo_S32x64x64x64_S32x64x64_d3 : S32x64x64x64.ReducesTo [3] S32x64x64
  h_S_ : 0 < S_.numel
  bcast_S_S32x64x64 : S_.BroadcastsInDim S32x64x64 (![] : Fin 0 → Fin S32x64x64.rank)
  bcast_S32x64x64_S32x64x64x1_0_1_2 : S32x64x64.BroadcastsInDim S32x64x64x1 (![0, 1, 2] : Fin 3 → Fin S32x64x64x1.rank)
  bcast_S32x64x64x1_S32x64x64x64_0_1_2_3 : S32x64x64x1.BroadcastsInDim S32x64x64x64 (![0, 1, 2, 3] : Fin 4 → Fin S32x64x64x64.rank)
  dot_S32x64x64x256_S256x256_S32x64x64x256_3_0_012_1_n_n_wf : DotDims.WF S32x64x64x256 S256x256 S32x64x64x256 [3] [0] [0, 1, 2] [1] [] []
  dot_S32x64x64x256_S32x64x64x256_S32x64x64x64_3_3_2_2_01_01_wf : DotDims.WF S32x64x64x256 S32x64x64x256 S32x64x64x64 [3] [3] [2] [2] [0, 1] [0, 1]
  dot_S32x64x64x64_S32x64x64x256_S32x64x64x256_3_2_2_3_01_01_wf : DotDims.WF S32x64x64x64 S32x64x64x256 S32x64x64x256 [3] [2] [2] [3] [0, 1] [0, 1]

variable [Facts₀]

def dot_S32x64x64x256_S256x256_S32x64x64x256_3_0_012_1_n_n : DotDims S32x64x64x256 S256x256 S32x64x64x256 where
  lhsContracting := [3]
  rhsContracting := [0]
  lhsNonContracting := [0, 1, 2]
  rhsNonContracting := [1]
  lhsBatch := []
  rhsBatch := []
  wf := dot_S32x64x64x256_S256x256_S32x64x64x256_3_0_012_1_n_n_wf
def dot_S32x64x64x256_S32x64x64x256_S32x64x64x64_3_3_2_2_01_01 : DotDims S32x64x64x256 S32x64x64x256 S32x64x64x64 where
  lhsContracting := [3]
  rhsContracting := [3]
  lhsNonContracting := [2]
  rhsNonContracting := [2]
  lhsBatch := [0, 1]
  rhsBatch := [0, 1]
  wf := dot_S32x64x64x256_S32x64x64x256_S32x64x64x64_3_3_2_2_01_01_wf
def dot_S32x64x64x64_S32x64x64x256_S32x64x64x256_3_2_2_3_01_01 : DotDims S32x64x64x64 S32x64x64x256 S32x64x64x256 where
  lhsContracting := [3]
  rhsContracting := [2]
  lhsNonContracting := [2]
  rhsNonContracting := [3]
  lhsBatch := [0, 1]
  rhsBatch := [0, 1]
  wf := dot_S32x64x64x64_S32x64x64x256_S32x64x64x256_3_2_2_3_01_01_wf

class Facts : Prop extends Facts₀ where

variable [Facts]
-- ==== Proof.RowAttention.lean ====
/-
  Self-attention along the width axis, one image row at a time.

  For a row `X : Fin 64 → Fin 256 → EReal` (the 64 positions of one (batch, height) row, 256 channels each) and
  weights `Wq, Wk, Wv, Wo : Fin 256 → Fin 256 → EReal`, biases `bq, bk, bv, bo : Fin 256 → EReal`:

    Q w c = (∑ k, X w k · Wq k c) + bq c            (likewise K, V)
    S w u = ∑ c, Q w c · K u c                       (scores of position w against position u)
    M w   = max (−∞) (max over u of S w u, from −∞)  (the row maximum)
    E w u = exp (S w u − M w)
    Z w   = ∑ u, E w u
    P w u = E w u / Z w                              (the softmax over u)
    A w c = ∑ u, P w u · V u c
    O w d = (∑ c, A w c · Wo c d) + bo d

  Every operation is the exact one on the extended reals. The whole output array at (b, h, w, d) is `O w d` of the
  row (b, h) of the input: an entry depends on no other row. Nothing here mentions either program.
-/
import Idealize.ShloMosaic.PureOps.Ideal
import Idealize.ShloMosaic.Lib.ValueIdx

noncomputable section

namespace Cert.RowAttention

open Idealize.ShloMosaic Idealize.ShloMosaic.ValueIdx

/-- The word both programs start their maximum from: it denotes −∞. It is never evaluated. -/
abbrev negInf : EReal := Ideal.ofBits .f32 0xFF800000#32

/-- A channel projection with bias: `(∑ k, X w k · W k c) + b c`. -/
def proj (X : Fin 64 → Fin 256 → EReal) (W : Fin 256 → Fin 256 → EReal) (b : Fin 256 → EReal)
    (w : Fin 64) (c : Fin 256) : EReal :=
  (∑ k : Fin 256, X w k * W k c) + b c

/-- The score of position `w` against position `u`: the channel inner product of a query and a key. -/
def scores (Q K : Fin 64 → Fin 256 → EReal) (w u : Fin 64) : EReal :=
  ∑ c : Fin 256, Q w c * K u c

/-- The maximum of a score row, taken from −∞ (and once more against −∞, as both programs do). -/
def rowMax (S : Fin 64 → Fin 64 → EReal) (w : Fin 64) : EReal :=
  max negInf ((Finset.univ : Finset (Fin 64)).fold max negInf (S w))

/-- The shifted exponentials `exp (S w u − M w)`. -/
def expShift (S : Fin 64 → Fin 64 → EReal) (w u : Fin 64) : EReal :=
  Ideal.exp (S w u - rowMax S w)

/-- The normalizer of a row: the sum of its shifted exponentials. -/
def rowSum (S : Fin 64 → Fin 64 → EReal) (w : Fin 64) : EReal :=
  ∑ u : Fin 64, expShift S w u

/-- The softmax of a score row. -/
def softmax (S : Fin 64 → Fin 64 → EReal) (w u : Fin 64) : EReal :=
  Ideal.div (expShift S w u) (rowSum S w)

/-- The attention-weighted values: `∑ u, P w u · V u c`. -/
def mix (P : Fin 64 → Fin 64 → EReal) (V : Fin 64 → Fin 256 → EReal) (w : Fin 64) (c : Fin 256) : EReal :=
  ∑ u : Fin 64, P w u * V u c

/-- One row of the layer: project to queries, keys and values, attend along the row, project out. -/
def rowOut (X : Fin 64 → Fin 256 → EReal)
    (Wq : Fin 256 → Fin 256 → EReal) (bq : Fin 256 → EReal)
    (Wk : Fin 256 → Fin 256 → EReal) (bk : Fin 256 → EReal)
    (Wv : Fin 256 → Fin 256 → EReal) (bv : Fin 256 → EReal)
    (Wo : Fin 256 → Fin 256 → EReal) (bo : Fin 256 → EReal) (w : Fin 64) (d : Fin 256) : EReal :=
  proj (mix (softmax (scores (proj X Wq bq) (proj X Wk bk))) (proj X Wv bv)) Wo bo w d

/-- A square weight array read by coordinates. -/
abbrev mat (W : (⟨2, ![256, 256]⟩ : Shape).Idx → EReal) : Fin 256 → Fin 256 → EReal := fun k c => W (ix2 k c)

/-- A bias array read by its coordinate. -/
abbrev vec (b : (⟨1, ![256]⟩ : Shape).Idx → EReal) : Fin 256 → EReal := fun c => b (ix1 c)

/-- Row (b, h) of the input array. -/
abbrev rowOf (x : (⟨4, ![32, 64, 64, 256]⟩ : Shape).Idx → EReal) (b : Fin 32) (h : Fin 64) : Fin 64 → Fin 256 → EReal :=
  fun w k => x (ix4 b h w k)

/-- The whole output array: entry (b, h, w, d) is the row function of row (b, h) at (w, d). -/
def whole (x : (⟨4, ![32, 64, 64, 256]⟩ : Shape).Idx → EReal)
    (wq : (⟨2, ![256, 256]⟩ : Shape).Idx → EReal) (bq : (⟨1, ![256]⟩ : Shape).Idx → EReal)
    (wk : (⟨2, ![256, 256]⟩ : Shape).Idx → EReal) (bk : (⟨1, ![256]⟩ : Shape).Idx → EReal)
    (wv : (⟨2, ![256, 256]⟩ : Shape).Idx → EReal) (bv : (⟨1, ![256]⟩ : Shape).Idx → EReal)
    (wo : (⟨2, ![256, 256]⟩ : Shape).Idx → EReal) (bo : (⟨1, ![256]⟩ : Shape).Idx → EReal) :
    (⟨4, ![32, 64, 64, 256]⟩ : Shape).Idx → EReal :=
  fun i => rowOut (rowOf x (i 0) (i 1)) (mat wq) (vec bq) (mat wk) (vec bk) (mat wv) (vec bv) (mat wo) (vec bo) (i 2) (i 3)

theorem whole_apply (x : (⟨4, ![32, 64, 64, 256]⟩ : Shape).Idx → EReal)
    (wq : (⟨2, ![256, 256]⟩ : Shape).Idx → EReal) (bq : (⟨1, ![256]⟩ : Shape).Idx → EReal)
    (wk : (⟨2, ![256, 256]⟩ : Shape).Idx → EReal) (bk : (⟨1, ![256]⟩ : Shape).Idx → EReal)
    (wv : (⟨2, ![256, 256]⟩ : Shape).Idx → EReal) (bv : (⟨1, ![256]⟩ : Shape).Idx → EReal)
    (wo : (⟨2, ![256, 256]⟩ : Shape).Idx → EReal) (bo : (⟨1, ![256]⟩ : Shape).Idx → EReal)
    (b : Fin 32) (h w : Fin 64) (d : Fin 256) :
    whole x wq bq wk bk wv bv wo bo (ix4 b h w d)
      = rowOut (rowOf x b h) (mat wq) (vec bq) (mat wk) (vec bk) (mat wv) (vec bv) (mat wo) (vec bo) w d := rfl

end Cert.RowAttention

end
-- ==== Proof.ReferenceRows.lean ====
/-
  The reference computes the row attention function.

  The reference program is a chain of array operations: three channel projections of the input (a product over the
  channel axis, then a bias broadcast along the other axes and added), the batched product of queries and keys, a
  maximum over the last axis taken from the word for −∞ and once more against it, the shifted exponential, its sum
  over the last axis from zero, the quotient, the batched product with the values, and the output projection.

  Each stage is read here at one index with explicit coordinates (b, h, w, ·) and identified with the corresponding
  function of RowAttention applied to row (b, h) of the input: a product is the sum over the contracted coordinate of
  the operands at the indices the stage reads, a broadcast reads its operand at the coordinates it keeps, a reduction
  over one axis is the fold (or the sum) over that axis's coordinates, and a pointwise stage is the operation itself on
  the extended reals. Every index equation is an equality of coordinate tuples checked coordinate by coordinate. The
  word for −∞ is never evaluated: it is the same word on both sides. The last theorem assembles the stages into the
  equality of the whole output array with `RowAttention.whole`.
-/
import proofs.«112196_j74698071212469_1_alg».proof.Proof.Gen.ReferenceIdeal.Read
import proofs.«112196_j74698071212469_1_alg».proof.Proof.RowAttention
import Idealize.ShloMosaic.PureOps.Ideal.Laws
import Idealize.ShloMosaic.Lib.ValueIdx
import Idealize.ShloMosaic.Lib.Pipeline.Value
import Idealize.ShloMosaic.PureOps.Reduce

noncomputable section

namespace Cert.ReferenceRows

open Cert.ReferenceIdeal Cert.ReferenceIdeal.Gen Cert.ReferenceIdeal.Read Cert.RowAttention
open Idealize.ShloMosaic Idealize.ShloMosaic.ValueIdx

variable (x0 : (⟨S32x64x64x256, .f32⟩ : BufTy).Contents (Elt Ideal))
  (x1 : (⟨S256x256, .f32⟩ : BufTy).Contents (Elt Ideal)) (x2 : (⟨S256, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (b : Fin 32) (h w u : Fin 64) (c d : Fin 256)

/-! ## The three channel projections -/

/-- The query projection: the first product with its bias added, read at a position and a channel. -/
theorem proj_q :
    val_main_v3 (F := Ideal) x0 x1 x2 (ix4 b h w c) = proj (rowOf x0 b h) (mat x1) (vec x2) w c := by
  rw [val_main_v3_apply, val_main_v0_apply, val_main_v2_apply, val_main_v1_apply]
  unfold proj
  have eb : idx_main_v1 (idx_main_v2 (ix4 b h w c)) = ix1 c := (funext fun a => Fin.ext (by match a with | ⟨0, _⟩ => rfl))
  rw [eb]
  refine congrArg (· + x2 (ix1 c)) (Finset.sum_congr rfl fun k _ => ?_)
  have el : lidx_main_v0 (ix4 b h w c) k = ix4 b h w k := (funext fun a => Fin.ext (by match a with | ⟨0, _⟩ => rfl | ⟨1, _⟩ => rfl | ⟨2, _⟩ => rfl | ⟨3, _⟩ => rfl))
  have er : ridx_main_v0 (ix4 b h w c) k = ix2 k c := (funext fun a => Fin.ext (by match a with | ⟨0, _⟩ => rfl | ⟨1, _⟩ => rfl))
  rw [el, er]

/-- The key projection, likewise. -/
theorem proj_k :
    val_main_v7 (F := Ideal) x0 x3 x4 (ix4 b h w c) = proj (rowOf x0 b h) (mat x3) (vec x4) w c := by
  rw [val_main_v7_apply, val_main_v4_apply, val_main_v6_apply, val_main_v5_apply]
  unfold proj
  have eb : idx_main_v5 (idx_main_v6 (ix4 b h w c)) = ix1 c := (funext fun a => Fin.ext (by match a with | ⟨0, _⟩ => rfl))
  rw [eb]
  refine congrArg (· + x4 (ix1 c)) (Finset.sum_congr rfl fun k _ => ?_)
  have el : lidx_main_v4 (ix4 b h w c) k = ix4 b h w k := (funext fun a => Fin.ext (by match a with | ⟨0, _⟩ => rfl | ⟨1, _⟩ => rfl | ⟨2, _⟩ => rfl | ⟨3, _⟩ => rfl))
  have er : ridx_main_v4 (ix4 b h w c) k = ix2 k c := (funext fun a => Fin.ext (by match a with | ⟨0, _⟩ => rfl | ⟨1, _⟩ => rfl))
  rw [el, er]

/-- The value projection, likewise. -/
theorem proj_v :
    val_main_v11 (F := Ideal) x0 x5 x6 (ix4 b h w c) = proj (rowOf x0 b h) (mat x5) (vec x6) w c := by
  rw [val_main_v11_apply, val_main_v8_apply, val_main_v10_apply, val_main_v9_apply]
  unfold proj
  have eb : idx_main_v9 (idx_main_v10 (ix4 b h w c)) = ix1 c := (funext fun a => Fin.ext (by match a with | ⟨0, _⟩ => rfl))
  rw [eb]
  refine congrArg (· + x6 (ix1 c)) (Finset.sum_congr rfl fun k _ => ?_)
  have el : lidx_main_v8 (ix4 b h w c) k = ix4 b h w k := (funext fun a => Fin.ext (by match a with | ⟨0, _⟩ => rfl | ⟨1, _⟩ => rfl | ⟨2, _⟩ => rfl | ⟨3, _⟩ => rfl))
  have er : ridx_main_v8 (ix4 b h w c) k = ix2 k c := (funext fun a => Fin.ext (by match a with | ⟨0, _⟩ => rfl | ⟨1, _⟩ => rfl))
  rw [el, er]

/-! ## The scores and their softmax -/

/-- The score matrix of row (b, h): queries against keys. -/
abbrev rowScores : Fin 64 → Fin 64 → EReal :=
  scores (proj (rowOf x0 b h) (mat x1) (vec x2)) (proj (rowOf x0 b h) (mat x3) (vec x4))

/-- The batched product of queries and keys over the channel axis is the score of position w against position u. -/
theorem scores_eq :
    val_main_v12 (F := Ideal) x0 x1 x2 x3 x4 (ix4 b h w u) = rowScores x0 x1 x2 x3 x4 b h w u := by
  rw [val_main_v12_apply]
  unfold rowScores scores
  refine Finset.sum_congr rfl fun k _ => ?_
  have el : lidx_main_v12 (ix4 b h w u) k = ix4 b h w k := (funext fun a => Fin.ext (by match a with | ⟨0, _⟩ => rfl | ⟨1, _⟩ => rfl | ⟨2, _⟩ => rfl | ⟨3, _⟩ => rfl))
  have er : ridx_main_v12 (ix4 b h w u) k = ix4 b h u k := (funext fun a => Fin.ext (by match a with | ⟨0, _⟩ => rfl | ⟨1, _⟩ => rfl | ⟨2, _⟩ => rfl | ⟨3, _⟩ => rfl))
  rw [el, er, proj_q, proj_k]

/-- The maximum over the last axis, started from the word for −∞ and taken once more against it, is the row maximum:
    a reduction over one axis is the fold over that axis's coordinates, and the index it reads at coordinate k is (b, h, w, k). -/
theorem rowMax_eq :
    val_main_v15 (F := Ideal) x0 x1 x2 x3 x4 (ix3 b h w) = rowMax (rowScores x0 x1 x2 x3 x4 b h) w := by
  have hR : S32x64x64x64.Reduces [3] S32x64x64 := by decide
  rw [val_main_v15_apply, val_main_v14_apply, val_main_cst_0_apply]
  unfold val_main_v13
  rw [Host.reduce_eq_fold_single (FloatOps.maximumf (F := Ideal) (φ := .f32)) _ _ reducesTo_S32x64x64x64_S32x64x64_d3 hR h_S_]
  rw [val_main_cst_apply]
  unfold rowMax
  show max negInf ((Finset.univ : Finset (Fin 64)).fold max negInf
      (val_main_v12 (F := Ideal) x0 x1 x2 x3 x4 ∘ hR.lift (ix3 b h w))) = _
  refine congrArg (max negInf) (Finset.fold_congr fun (k : Fin 64) _ => ?_)
  have e : hR.lift (ix3 b h w) k = ix4 b h w k := (funext fun a => Fin.ext (by match a with | ⟨0, _⟩ => rfl | ⟨1, _⟩ => rfl | ⟨2, _⟩ => rfl | ⟨3, _⟩ => rfl))
  show val_main_v12 (F := Ideal) x0 x1 x2 x3 x4 (hR.lift (ix3 b h w) k) = _
  rw [e, scores_eq]

/-- Subtracting the broadcast row maximum and exponentiating gives the shifted exponential. -/
theorem expShift_eq :
    val_main_v19 (F := Ideal) x0 x1 x2 x3 x4 (ix4 b h w u) = expShift (rowScores x0 x1 x2 x3 x4 b h) w u := by
  rw [val_main_v19_apply, val_main_v18_apply, val_main_v17_apply, val_main_v16_apply]
  have e : idx_main_v16 (idx_main_v17 (ix4 b h w u)) = ix3 b h w := (funext fun a => Fin.ext (by match a with | ⟨0, _⟩ => rfl | ⟨1, _⟩ => rfl | ⟨2, _⟩ => rfl))
  rw [e, rowMax_eq, scores_eq]
  rfl

/-- The sum over the last axis, started from the zero word, is the row's normalizer. -/
theorem rowSum_eq :
    val_main_v20 (F := Ideal) x0 x1 x2 x3 x4 (ix3 b h w) = rowSum (rowScores x0 x1 x2 x3 x4 b h) w := by
  rw [val_main_v20_apply, val_main_cst_1_apply, Ideal.ofBits_def, Ideal.ofBits_zero_f32, zero_add]
  unfold rowSum
  refine Finset.sum_congr rfl fun k _ => ?_
  have e : idx_main_v20 (ix3 b h w) k = ix4 b h w k := (funext fun a => Fin.ext (by match a with | ⟨0, _⟩ => rfl | ⟨1, _⟩ => rfl | ⟨2, _⟩ => rfl | ⟨3, _⟩ => rfl))
  rw [e, expShift_eq]

/-- Dividing by the broadcast normalizer gives the softmax. -/
theorem softmax_eq :
    val_main_v23 (F := Ideal) x0 x1 x2 x3 x4 (ix4 b h w u) = softmax (rowScores x0 x1 x2 x3 x4 b h) w u := by
  rw [val_main_v23_apply, val_main_v22_apply, val_main_v21_apply]
  have e : idx_main_v21 (idx_main_v22 (ix4 b h w u)) = ix3 b h w := (funext fun a => Fin.ext (by match a with | ⟨0, _⟩ => rfl | ⟨1, _⟩ => rfl | ⟨2, _⟩ => rfl))
  rw [e, rowSum_eq, expShift_eq]
  rfl

/-! ## The weighted values and the output projection -/

/-- The batched product of the softmax with the values over the position axis is the attention-weighted value. -/
theorem mix_eq :
    val_main_v24 (F := Ideal) x0 x1 x2 x3 x4 x5 x6 (ix4 b h w c)
      = mix (softmax (rowScores x0 x1 x2 x3 x4 b h)) (proj (rowOf x0 b h) (mat x5) (vec x6)) w c := by
  rw [val_main_v24_apply]
  unfold mix
  refine Finset.sum_congr rfl fun k _ => ?_
  have el : lidx_main_v24 (ix4 b h w c) k = ix4 b h w k := (funext fun a => Fin.ext (by match a with | ⟨0, _⟩ => rfl | ⟨1, _⟩ => rfl | ⟨2, _⟩ => rfl | ⟨3, _⟩ => rfl))
  have er : ridx_main_v24 (ix4 b h w c) k = ix4 b h k c := (funext fun a => Fin.ext (by match a with | ⟨0, _⟩ => rfl | ⟨1, _⟩ => rfl | ⟨2, _⟩ => rfl | ⟨3, _⟩ => rfl))
  rw [el, er, softmax_eq, proj_v]

/-- The last product with its bias added is the output projection of the weighted values: one row of the layer. -/
theorem rowOut_eq :
    val_main_v28 (F := Ideal) x0 x1 x2 x3 x4 x5 x6 x7 x8 (ix4 b h w d)
      = rowOut (rowOf x0 b h) (mat x1) (vec x2) (mat x3) (vec x4) (mat x5) (vec x6) (mat x7) (vec x8) w d := by
  rw [val_main_v28_apply, val_main_v25_apply, val_main_v27_apply, val_main_v26_apply]
  have eb : idx_main_v26 (idx_main_v27 (ix4 b h w d)) = ix1 d := (funext fun a => Fin.ext (by match a with | ⟨0, _⟩ => rfl))
  rw [eb]
  show _ = (∑ k : Fin 256, mix (softmax (rowScores x0 x1 x2 x3 x4 b h)) (proj (rowOf x0 b h) (mat x5) (vec x6)) w k * mat x7 k d) + vec x8 d
  refine congrArg (· + x8 (ix1 d)) (Finset.sum_congr rfl fun k _ => ?_)
  have el : lidx_main_v25 (ix4 b h w d) k = ix4 b h w k := (funext fun a => Fin.ext (by match a with | ⟨0, _⟩ => rfl | ⟨1, _⟩ => rfl | ⟨2, _⟩ => rfl | ⟨3, _⟩ => rfl))
  have er : ridx_main_v25 (ix4 b h w d) k = ix2 k d := (funext fun a => Fin.ext (by match a with | ⟨0, _⟩ => rfl | ⟨1, _⟩ => rfl))
  rw [el, er, mix_eq]

/-! ## The whole array -/

/-- The reference's output array is the row attention function of each row. -/
theorem ref_eq (x0 : (⟨S32x64x64x256, .f32⟩ : BufTy).Contents (Elt Ideal))
    (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) :
    Cert.ReferenceIdeal.Read.val_main_v28 (F := Ideal) x0 x1 x2 x3 x4 x5 x6 x7 x8
      = Cert.RowAttention.whole x0 x1 x2 x3 x4 x5 x6 x7 x8 := by
  funext i
  obtain ⟨b, h, w, d, rfl⟩ : ∃ b h w d, i = ix4 b h w d := ⟨i 0, i 1, i 2, i 3, eq_ix4 i⟩
  rw [whole_apply]
  exact rowOut_eq x0 x1 x2 x3 x4 x5 x6 x7 x8 b h w d

end Cert.ReferenceRows

end
-- ==== Proof.SlabLayout.lean ====
/-
  How a 16-row slab is laid out when the body flattens it, and how a bias row and a per-position column are spread.

  A [16, 64, 256] slab cast to [1024, 256] puts position `w` of slab row `hh` at flat row `hh · 64 + w`, and the cast
  back reads it from there: the two casts keep the row-major position, which is `(hh · 64 + w) · 256 + c` on both
  sides. A [256] bias cast to [1, 256] and broadcast over 1024 rows reads the bias at the column. A [16, 64] array of
  per-position numbers cast to [16, 64, 1] and broadcast along the last axis reads the number of the position.
-/
import proofs.«112196_j74698071212469_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelRows

open Cert.KernelIdeal
open Idealize.ShloMosaic Idealize.ShloMosaic.ValueIdx

variable {α : Type}

/-- The flat row of position `w` of slab row `hh`. -/
def flat (hh : Fin 16) (w : Fin 64) : Fin 1024 :=
  ⟨hh.val * 64 + w.val, by have := hh.isLt; have := w.isLt; omega⟩

/-- The flattened slab at flat row `hh · 64 + w` is the slab at (hh, w). -/
theorem flatten_apply (x : S16x64x256.Idx → α) (h : S16x64x256.ShapeCasts S1024x256)
    (hh : Fin 16) (w : Fin 64) (k : Fin 256) :
    shapeCast S1024x256 x h (ix2 (flat hh w) k) = x (ix3 hh w k) :=
  shapeCast_apply x h _ _ (by
    rw [Shape.rowMajor_val_two, Shape.rowMajor_val_three]
    rfl)

/-- The cast back reads position (hh, w) from flat row `hh · 64 + w`. -/
theorem unflatten_apply (y : S1024x256.Idx → α) (h : S1024x256.ShapeCasts S16x64x256)
    (hh : Fin 16) (w : Fin 64) (c : Fin 256) :
    shapeCast S16x64x256 y h (ix3 hh w c) = y (ix2 (flat hh w) c) :=
  shapeCast_apply y h _ _ (by
    rw [Shape.rowMajor_val_two, Shape.rowMajor_val_three]
    rfl)

/-- A bias, as one row spread over all flat rows, reads the bias at the column. -/
theorem biasRow_apply (b : S256.Idx → α) (h1 : S256.ShapeCasts S1x256) (h2 : S1x256.Broadcasts S1024x256)
    (p : Fin 1024) (c : Fin 256) :
    broadcastTo S1024x256 (shapeCast S1x256 b h1) h2 (ix2 p c) = b (ix1 c) :=
  (broadcastTo_1b_ab_apply _ h2 p c).trans (shapeCast_a_1a_apply b h1 0 c)

/-- A per-position number, spread along the last axis, reads the number of the position. -/
theorem column_apply (v : S16x64.Idx → α) (h1 : S16x64.ShapeCasts S16x64x1) (h2 : S16x64x1.Broadcasts S16x64x64)
    (hh : Fin 16) (w u : Fin 64) :
    broadcastTo S16x64x64 (shapeCast S16x64x1 v h1) h2 (ix3 hh w u) = v (ix2 hh w) := by
  refine (broadcastTo_apply _ h2 (ix3 hh w u) (ix3 hh w (0 : Fin 1)) fun a => ?_).trans ?_
  · match a with
    | ⟨0, _⟩ => show hh.val = if (16 : Nat) = 1 then 0 else hh.val; rw [if_neg (by decide)]
    | ⟨1, _⟩ => show w.val = if (64 : Nat) = 1 then 0 else w.val; rw [if_neg (by decide)]
    | ⟨2, _⟩ => show 0 = if (1 : Nat) = 1 then 0 else u.val; rw [if_pos rfl]
  · exact shapeCast_apply v h1 _ _ (by
      rw [Shape.rowMajor_val_two, Shape.rowMajor_val_three]
      show hh.val * 64 + w.val = (hh.val * 64 + w.val) * 1 + 0
      omega)

end Cert.KernelRows

end
-- ==== Proof.SlabProducts.lean ====
/-
  The body's three kinds of matrix product and its two lane reductions, read at coordinates.

  A product into a zero accumulator is the plain sum over the contracted coordinate of the operands' products:
    the flat product   [1024, 256] · [256, 256]            at (p, c):      ∑ k, A (p, k) · B (k, c)
    the score product  [16, 64, 256] · [16, 64, 256]ᵀ      at (hh, w, u):  ∑ c, Q (hh, w, c) · K (hh, u, c)     (slab row hh is a batch axis)
    the mixing product [16, 64, 64] · [16, 64, 256]         at (hh, w, c):  ∑ u, P (hh, w, u) · V (hh, u, c)
  The maximum over the last axis, from the word that denotes −∞, is the fold of `max` over that coordinate; the sum over the
  last axis, from zero, is the sum over it.
-/
import proofs.«112196_j74698071212469_1_alg».proof.Proof.Gen.KernelIdeal.Skeleton
import proofs.«112196_j74698071212469_1_alg».proof.Proof.RowAttention
import Idealize.ShloMosaic.PureOps.Ideal.Laws
import Idealize.ShloMosaic.Lib.ValueIdx

noncomputable section

namespace Cert.KernelRows

open Cert.KernelIdeal Cert.RowAttention
open Idealize.ShloMosaic Idealize.ShloMosaic.ValueIdx

/-! ## Which operand coordinate each output coordinate and the contracted coordinate go to -/

theorem flatDot_lhs0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem flatDot_lhs1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem flatDot_rhs0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem flatDot_rhs1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem scoreDot_lhs0 (i : S16x64x64.Idx) (q : dot_S16x64x256_S16x64x256_S16x64x64_2_2_1_1_0_0.contr.Idx) :
    (dot_S16x64x256_S16x64x256_S16x64x64_2_2_1_1_0_0.lhsIdx i q 0).val = (i 0).val := by
  unfold DotDims.lhsIdx
  rw [dif_pos (show (0 : Fin S16x64x256.rank) ∈ dot_S16x64x256_S16x64x256_S16x64x64_2_2_1_1_0_0.lhsBatch by decide)]
  rfl
theorem scoreDot_lhs1 (i : S16x64x64.Idx) (q : dot_S16x64x256_S16x64x256_S16x64x64_2_2_1_1_0_0.contr.Idx) :
    (dot_S16x64x256_S16x64x256_S16x64x64_2_2_1_1_0_0.lhsIdx i q 1).val = (i 1).val := by
  unfold DotDims.lhsIdx
  rw [dif_neg (show ¬(1 : Fin S16x64x256.rank) ∈ dot_S16x64x256_S16x64x256_S16x64x64_2_2_1_1_0_0.lhsBatch by decide), dif_pos (show (1 : Fin S16x64x256.rank) ∈ dot_S16x64x256_S16x64x256_S16x64x64_2_2_1_1_0_0.lhsNonContracting by decide)]
  rfl
theorem scoreDot_lhs2 (i : S16x64x64.Idx) (q : dot_S16x64x256_S16x64x256_S16x64x64_2_2_1_1_0_0.contr.Idx) :
    (dot_S16x64x256_S16x64x256_S16x64x64_2_2_1_1_0_0.lhsIdx i q 2).val = (q ⟨0, by decide⟩).val :=
  dot_S16x64x256_S16x64x256_S16x64x64_2_2_1_1_0_0.lhsIdx_val_of_single rfl i q
theorem scoreDot_rhs0 (i : S16x64x64.Idx) (q : dot_S16x64x256_S16x64x256_S16x64x64_2_2_1_1_0_0.contr.Idx) :
    (dot_S16x64x256_S16x64x256_S16x64x64_2_2_1_1_0_0.rhsIdx i q 0).val = (i 0).val := by
  unfold DotDims.rhsIdx
  rw [dif_pos (show (0 : Fin S16x64x256.rank) ∈ dot_S16x64x256_S16x64x256_S16x64x64_2_2_1_1_0_0.rhsBatch by decide)]
  rfl
theorem scoreDot_rhs1 (i : S16x64x64.Idx) (q : dot_S16x64x256_S16x64x256_S16x64x64_2_2_1_1_0_0.contr.Idx) :
    (dot_S16x64x256_S16x64x256_S16x64x64_2_2_1_1_0_0.rhsIdx i q 1).val = (i 2).val := by
  unfold DotDims.rhsIdx
  rw [dif_neg (show ¬(1 : Fin S16x64x256.rank) ∈ dot_S16x64x256_S16x64x256_S16x64x64_2_2_1_1_0_0.rhsBatch by decide), dif_pos (show (1 : Fin S16x64x256.rank) ∈ dot_S16x64x256_S16x64x256_S16x64x64_2_2_1_1_0_0.rhsNonContracting by decide)]
  rfl
theorem scoreDot_rhs2 (i : S16x64x64.Idx) (q : dot_S16x64x256_S16x64x256_S16x64x64_2_2_1_1_0_0.contr.Idx) :
    (dot_S16x64x256_S16x64x256_S16x64x64_2_2_1_1_0_0.rhsIdx i q 2).val = (q ⟨0, by decide⟩).val :=
  dot_S16x64x256_S16x64x256_S16x64x64_2_2_1_1_0_0.rhsIdx_val_of_single rfl i q
theorem mixDot_lhs0 (i : S16x64x256.Idx) (q : dot_S16x64x64_S16x64x256_S16x64x256_2_1_1_2_0_0.contr.Idx) :
    (dot_S16x64x64_S16x64x256_S16x64x256_2_1_1_2_0_0.lhsIdx i q 0).val = (i 0).val := by
  unfold DotDims.lhsIdx
  rw [dif_pos (show (0 : Fin S16x64x64.rank) ∈ dot_S16x64x64_S16x64x256_S16x64x256_2_1_1_2_0_0.lhsBatch by decide)]
  rfl
theorem mixDot_lhs1 (i : S16x64x256.Idx) (q : dot_S16x64x64_S16x64x256_S16x64x256_2_1_1_2_0_0.contr.Idx) :
    (dot_S16x64x64_S16x64x256_S16x64x256_2_1_1_2_0_0.lhsIdx i q 1).val = (i 1).val := by
  unfold DotDims.lhsIdx
  rw [dif_neg (show ¬(1 : Fin S16x64x64.rank) ∈ dot_S16x64x64_S16x64x256_S16x64x256_2_1_1_2_0_0.lhsBatch by decide), dif_pos (show (1 : Fin S16x64x64.rank) ∈ dot_S16x64x64_S16x64x256_S16x64x256_2_1_1_2_0_0.lhsNonContracting by decide)]
  rfl
theorem mixDot_lhs2 (i : S16x64x256.Idx) (q : dot_S16x64x64_S16x64x256_S16x64x256_2_1_1_2_0_0.contr.Idx) :
    (dot_S16x64x64_S16x64x256_S16x64x256_2_1_1_2_0_0.lhsIdx i q 2).val = (q ⟨0, by decide⟩).val :=
  dot_S16x64x64_S16x64x256_S16x64x256_2_1_1_2_0_0.lhsIdx_val_of_single rfl i q
theorem mixDot_rhs0 (i : S16x64x256.Idx) (q : dot_S16x64x64_S16x64x256_S16x64x256_2_1_1_2_0_0.contr.Idx) :
    (dot_S16x64x64_S16x64x256_S16x64x256_2_1_1_2_0_0.rhsIdx i q 0).val = (i 0).val := by
  unfold DotDims.rhsIdx
  rw [dif_pos (show (0 : Fin S16x64x256.rank) ∈ dot_S16x64x64_S16x64x256_S16x64x256_2_1_1_2_0_0.rhsBatch by decide)]
  rfl
theorem mixDot_rhs1 (i : S16x64x256.Idx) (q : dot_S16x64x64_S16x64x256_S16x64x256_2_1_1_2_0_0.contr.Idx) :
    (dot_S16x64x64_S16x64x256_S16x64x256_2_1_1_2_0_0.rhsIdx i q 1).val = (q ⟨0, by decide⟩).val :=
  dot_S16x64x64_S16x64x256_S16x64x256_2_1_1_2_0_0.rhsIdx_val_of_single rfl i q
theorem mixDot_rhs2 (i : S16x64x256.Idx) (q : dot_S16x64x64_S16x64x256_S16x64x256_2_1_1_2_0_0.contr.Idx) :
    (dot_S16x64x64_S16x64x256_S16x64x256_2_1_1_2_0_0.rhsIdx i q 2).val = (i 2).val := by
  unfold DotDims.rhsIdx
  rw [dif_neg (show ¬(2 : Fin S16x64x256.rank) ∈ dot_S16x64x64_S16x64x256_S16x64x256_2_1_1_2_0_0.rhsBatch by decide), dif_pos (show (2 : Fin S16x64x256.rank) ∈ dot_S16x64x64_S16x64x256_S16x64x256_2_1_1_2_0_0.rhsNonContracting by decide)]
  rfl

/-! ## The products -/

/-- The flat product into zero at (p, c). -/
theorem flatDot_apply (A : FVec Ideal S1024x256 .bf16) (B : FVec Ideal S256x256 .bf16) (p : Fin 1024) (c : Fin 256) :
    matmul dot_S1024x256_S256x256_S1024x256_1_0_0_1_n_n none A B (constant (F := Ideal) S1024x256 .f32 0x00000000#32) (ix2 p c)
      = ∑ k : Fin 256, A (ix2 p k) * B (ix2 k c) := by
  refine (Ideal.matmul_constant_zero_apply dot_S1024x256_S256x256_S1024x256_1_0_0_1_n_n none A B (ix2 p c)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p c) ((contrEquiv1 dot_S1024x256_S256x256_S1024x256_1_0_0_1_n_n 256 rfl rfl).symm k) = ix2 p k := funext fun a => Fin.ext (by
    match a with
    | ⟨0, _⟩ => exact flatDot_lhs0 _ _
    | ⟨1, _⟩ => exact (flatDot_lhs1 _ _).trans hk)
  have er : dot_S1024x256_S256x256_S1024x256_1_0_0_1_n_n.rhsIdx (ix2 p c) ((contrEquiv1 dot_S1024x256_S256x256_S1024x256_1_0_0_1_n_n 256 rfl rfl).symm k) = ix2 k c := funext fun a => Fin.ext (by
    match a with
    | ⟨0, _⟩ => exact (flatDot_rhs0 _ _).trans hk
    | ⟨1, _⟩ => exact flatDot_rhs1 _ _)
  rw [el, er]

/-- The score product into zero at (hh, w, u). -/
theorem scoreDot_apply (Q K : FVec Ideal S16x64x256 .bf16) (hh : Fin 16) (w u : Fin 64) :
    matmul dot_S16x64x256_S16x64x256_S16x64x64_2_2_1_1_0_0 none Q K (constant (F := Ideal) S16x64x64 .f32 0x00000000#32) (ix3 hh w u)
      = ∑ c : Fin 256, Q (ix3 hh w c) * K (ix3 hh u c) := by
  refine (Ideal.matmul_constant_zero_apply dot_S16x64x256_S16x64x256_S16x64x64_2_2_1_1_0_0 none Q K (ix3 hh w u)).trans ?_
  rw [← Equiv.sum_comp (contrEquiv1 dot_S16x64x256_S16x64x256_S16x64x64_2_2_1_1_0_0 256 rfl rfl).symm]
  refine Finset.sum_congr rfl fun k _ => ?_
  have hk := contrEquiv1_symm_val dot_S16x64x256_S16x64x256_S16x64x64_2_2_1_1_0_0 256 rfl rfl k
  have el : dot_S16x64x256_S16x64x256_S16x64x64_2_2_1_1_0_0.lhsIdx (ix3 hh w u) ((contrEquiv1 dot_S16x64x256_S16x64x256_S16x64x64_2_2_1_1_0_0 256 rfl rfl).symm k) = ix3 hh w k := funext fun a => Fin.ext (by
    match a with
    | ⟨0, _⟩ => exact scoreDot_lhs0 _ _
    | ⟨1, _⟩ => exact scoreDot_lhs1 _ _
    | ⟨2, _⟩ => exact (scoreDot_lhs2 _ _).trans hk)
  have er : dot_S16x64x256_S16x64x256_S16x64x64_2_2_1_1_0_0.rhsIdx (ix3 hh w u) ((contrEquiv1 dot_S16x64x256_S16x64x256_S16x64x64_2_2_1_1_0_0 256 rfl rfl).symm k) = ix3 hh u k := funext fun a => Fin.ext (by
    match a with
    | ⟨0, _⟩ => exact scoreDot_rhs0 _ _
    | ⟨1, _⟩ => exact scoreDot_rhs1 _ _
    | ⟨2, _⟩ => exact (scoreDot_rhs2 _ _).trans hk)
  rw [el, er]

/-- The mixing product into zero at (hh, w, c). -/
theorem mixDot_apply (P : FVec Ideal S16x64x64 .bf16) (V : FVec Ideal S16x64x256 .bf16) (hh : Fin 16) (w : Fin 64) (c : Fin 256) :
    matmul dot_S16x64x64_S16x64x256_S16x64x256_2_1_1_2_0_0 none P V (constant (F := Ideal) S16x64x256 .f32 0x00000000#32) (ix3 hh w c)
      = ∑ u : Fin 64, P (ix3 hh w u) * V (ix3 hh u c) := by
  refine (Ideal.matmul_constant_zero_apply dot_S16x64x64_S16x64x256_S16x64x256_2_1_1_2_0_0 none P V (ix3 hh w c)).trans ?_
  rw [← Equiv.sum_comp (contrEquiv1 dot_S16x64x64_S16x64x256_S16x64x256_2_1_1_2_0_0 64 rfl rfl).symm]
  refine Finset.sum_congr rfl fun k _ => ?_
  have hk := contrEquiv1_symm_val dot_S16x64x64_S16x64x256_S16x64x256_2_1_1_2_0_0 64 rfl rfl k
  have el : dot_S16x64x64_S16x64x256_S16x64x256_2_1_1_2_0_0.lhsIdx (ix3 hh w c) ((contrEquiv1 dot_S16x64x64_S16x64x256_S16x64x256_2_1_1_2_0_0 64 rfl rfl).symm k) = ix3 hh w k := funext fun a => Fin.ext (by
    match a with
    | ⟨0, _⟩ => exact mixDot_lhs0 _ _
    | ⟨1, _⟩ => exact mixDot_lhs1 _ _
    | ⟨2, _⟩ => exact (mixDot_lhs2 _ _).trans hk)
  have er : dot_S16x64x64_S16x64x256_S16x64x256_2_1_1_2_0_0.rhsIdx (ix3 hh w c) ((contrEquiv1 dot_S16x64x64_S16x64x256_S16x64x256_2_1_1_2_0_0 64 rfl rfl).symm k) = ix3 hh k c := funext fun a => Fin.ext (by
    match a with
    | ⟨0, _⟩ => exact mixDot_rhs0 _ _
    | ⟨1, _⟩ => exact (mixDot_rhs1 _ _).trans hk
    | ⟨2, _⟩ => exact mixDot_rhs2 _ _)
  rw [el, er]

/-! ## The lane reductions -/

/-- The maximum over the last axis, from −∞, at (hh, w): the fold of `max` over `u`. -/
theorem laneMax_apply (S : FVec Ideal S16x64x64 .f32) (h : S16x64x64.Reduces [2] S16x64) (hφ : FKind.Formats .f32)
    (hacc : (0xFF800000#32 : BitVec 32) = FKind.maximumf.neutral .f32 hφ) (hh : Fin 16) (w : Fin 64) :
    multiReduction (F := Ideal) .maximumf [2] S16x64 S 0xFF800000#32 h hφ hacc (ix2 hh w)
      = (Finset.univ : Finset (Fin 64)).fold max negInf (fun u => S (ix3 hh w u)) := by
  refine (Ideal.multiReduction_maximumf_single S _ h hφ hacc (ix2 hh w)).trans ?_
  refine congrArg (fun f => (Finset.univ : Finset (Fin 64)).fold max negInf f) (funext fun u => ?_)
  exact congrArg S (funext fun a => Fin.ext (by
    match a with
    | ⟨0, _⟩ => rfl
    | ⟨1, _⟩ => rfl
    | ⟨2, _⟩ => rfl))

/-- The sum over the last axis, from zero, at (hh, w): the sum over `u`. -/
theorem laneSum_apply (E : FVec Ideal S16x64x64 .f32) (h : S16x64x64.Reduces [2] S16x64) (hφ : FKind.Formats .f32)
    (hacc : (0x00000000#32 : BitVec 32) = FKind.add.neutral .f32 hφ) (hh : Fin 16) (w : Fin 64) :
    multiReduction (F := Ideal) .add [2] S16x64 E 0x00000000#32 h hφ hacc (ix2 hh w)
      = ∑ u : Fin 64, E (ix3 hh w u) := by
  refine (Ideal.multiReduction_add_single E _ h hφ hacc (ix2 hh w)).trans ?_
  refine Finset.sum_congr rfl fun u _ => ?_
  exact congrArg E (funext fun a => Fin.ext (by
    match a with
    | ⟨0, _⟩ => rfl
    | ⟨1, _⟩ => rfl
    | ⟨2, _⟩ => rfl))

end Cert.KernelRows

end
-- ==== Proof.SlabStages.lean ====
/-
  The slab's intermediate arrays, entry by entry.

  At one grid point the body holds one 16-row slab `x0` of the input (a [1, 16, 64, 256] block) and the whole weight
  and bias arrays. Flattening the slab to [1024, 256] and back does not mix rows: row `hh` of the slab occupies the
  flat rows `hh · 64 + w`. So queries, keys and values at (hh, w, ·) are the channel projections of slab row `hh`; the
  score, the maximum, the exponentials, their sum and the quotient at (hh, w, ·) only see slab row `hh` (the slab row is a
  batch axis of both batched products); and the value stored at (0, hh, w, d) is the row attention function of row `hh`
  of the slab at (w, d). A change of float format is the identity on the extended reals, so the narrowing casts vanish.
-/
import proofs.«112196_j74698071212469_1_alg».proof.Proof.Gen.KernelIdeal.Skeleton
import proofs.«112196_j74698071212469_1_alg».proof.Proof.RowAttention
import proofs.«112196_j74698071212469_1_alg».proof.Proof.SlabLayout
import proofs.«112196_j74698071212469_1_alg».proof.Proof.SlabProducts
import Idealize.ShloMosaic.PureOps.Ideal.Laws
import Idealize.ShloMosaic.Lib.ValueIdx
import Idealize.ShloMosaic.Lib.ValueLayout
import Idealize.ShloMosaic.Lib.Pipeline.Value

noncomputable section

namespace Cert.KernelRows

open Cert.KernelIdeal Cert.KernelIdeal.Gen Cert.RowAttention
open Idealize.ShloMosaic Idealize.ShloMosaic.ValueIdx

/-- Row `hh` of a slab. -/
abbrev slabRow (x0 : Vec Ideal S1x16x64x256 .f32) (hh : Fin 16) : Fin 64 → Fin 256 → EReal :=
  fun w k => x0 (ix4 (0 : Fin 1) hh w k)

/-- The flattened slab at flat row `hh · 64 + w`, channel `k`, is the slab at (0, hh, w, k). -/
theorem flatSlab_apply (x0 : Vec Ideal S1x16x64x256 .f32) (hh : Fin 16) (w : Fin 64) (k : Fin 256) :
    k0_pay2 (F := Ideal) x0 (ix2 (flat hh w) k) = x0 (ix4 (0 : Fin 1) hh w k) := by
  unfold k0_pay2
  refine (flatten_apply _ _ hh w k).trans ?_
  exact shapeCast_1abc_abc_apply x0 _ hh w k

/-- A projection of the flattened slab, with its bias row, at flat row `hh · 64 + w`: the channel projection of slab row `hh`. -/
theorem projFlat_apply (x0 : Vec Ideal S1x16x64x256 .f32) (W : Vec Ideal S256x256 .f32) (b : Vec Ideal S256 .f32)
    (hb : FTy.bits .bf16 < FTy.bits .f32) (h1 : S256.ShapeCasts S1x256) (h2 : S1x256.Broadcasts S1024x256)
    (hh : Fin 16) (w : Fin 64) (c : Fin 256) :
    addf (matmul dot_S1024x256_S256x256_S1024x256_1_0_0_1_n_n none (k0_pay2 (F := Ideal) x0) (truncf .bf16 W hb)
        (constant (F := Ideal) S1024x256 .f32 0x00000000#32)) (broadcastTo S1024x256 (shapeCast S1x256 b h1) h2) (ix2 (flat hh w) c)
      = proj (slabRow x0 hh) (mat W) (vec b) w c := by
  refine (addf_apply _ _ _).trans ?_
  rw [flatDot_apply, biasRow_apply]
  unfold proj
  refine congrArg₂ (· + ·) (Finset.sum_congr rfl fun k _ => ?_) rfl
  rw [flatSlab_apply]
  rfl

/-- The scores of the slab at (hh, w, u): the scores of slab row `hh`'s queries against its keys. -/
theorem scoresSlab_apply (x0 : Vec Ideal S1x16x64x256 .f32) (wq wk : Vec Ideal S256x256 .f32) (bq bk : Vec Ideal S256 .f32)
    (hh : Fin 16) (w u : Fin 64) :
    k0_pay5 (F := Ideal) x0 wq wk bq bk (ix3 hh w u)
      = scores (proj (slabRow x0 hh) (mat wq) (vec bq)) (proj (slabRow x0 hh) (mat wk) (vec bk)) w u := by
  unfold k0_pay5
  refine (scoreDot_apply _ _ hh w u).trans ?_
  unfold scores
  refine Finset.sum_congr rfl fun c _ => ?_
  refine congrArg₂ (· * ·) ?_ ?_
  · refine (truncf_apply (φ := .f32) (ψ := .bf16) _ _ _).trans ?_
    refine (unflatten_apply _ _ hh w c).trans ?_
    exact projFlat_apply x0 wq bq _ _ _ hh w c
  · refine (truncf_apply (φ := .f32) (ψ := .bf16) _ _ _).trans ?_
    refine (unflatten_apply _ _ hh u c).trans ?_
    exact projFlat_apply x0 wk bk _ _ _ hh u c

/-- The row maxima of the slab at (hh, w): the fold of `max` over slab row `hh`'s scores of position `w`. -/
theorem maxSlab_apply (x0 : Vec Ideal S1x16x64x256 .f32) (wq wk : Vec Ideal S256x256 .f32) (bq bk : Vec Ideal S256 .f32)
    (hh : Fin 16) (w : Fin 64) :
    k0_pay6 (F := Ideal) x0 wq wk bq bk (ix2 hh w)
      = (Finset.univ : Finset (Fin 64)).fold max negInf
          (scores (proj (slabRow x0 hh) (mat wq) (vec bq)) (proj (slabRow x0 hh) (mat wk) (vec bk)) w) := by
  unfold k0_pay6
  refine (laneMax_apply _ _ _ _ hh w).trans ?_
  exact congrArg (fun f => (Finset.univ : Finset (Fin 64)).fold max negInf f)
    (funext fun u => scoresSlab_apply x0 wq wk bq bk hh w u)

/-- The values of the slab at (hh, u, c): the channel projection of slab row `hh`. -/
theorem valuesSlab_apply (x0 : Vec Ideal S1x16x64x256 .f32) (wv : Vec Ideal S256x256 .f32) (bv : Vec Ideal S256 .f32)
    (hh : Fin 16) (u : Fin 64) (c : Fin 256) :
    k0_pay4 (F := Ideal) x0 wv bv (ix3 hh u c) = proj (slabRow x0 hh) (mat wv) (vec bv) u c := by
  unfold k0_pay4
  refine (truncf_apply (φ := .f32) (ψ := .bf16) _ _ _).trans ?_
  refine (unflatten_apply _ _ hh u c).trans ?_
  exact projFlat_apply x0 wv bv _ _ _ hh u c

end Cert.KernelRows

end
-- ==== Proof.KernelRows.lean ====
/-
  The kernel's block, entry by entry.

  With the slab's scores `S`, row maxima and values `V` known row by row (slab row `hh` only sees slab row `hh`), the
  rest of the body is the softmax along the last axis, the mixing product with the values, and the output projection on
  the flattened result. The maximum taken once more against −∞, the shift, the exponential, the row sum spread back along
  the row and the quotient are read position by position; the flattening and its inverse keep position (hh, w). So the
  value stored at (0, hh, w, d) is the row attention function of row `hh` of the slab at (w, d).
-/
import proofs.«112196_j74698071212469_1_alg».proof.Proof.Gen.KernelIdeal.Skeleton
import proofs.«112196_j74698071212469_1_alg».proof.Proof.RowAttention
import proofs.«112196_j74698071212469_1_alg».proof.Proof.SlabLayout
import proofs.«112196_j74698071212469_1_alg».proof.Proof.SlabProducts
import proofs.«112196_j74698071212469_1_alg».proof.Proof.SlabStages
import Idealize.ShloMosaic.PureOps.Ideal.Laws
import Idealize.ShloMosaic.Lib.ValueIdx
import Idealize.ShloMosaic.Lib.ValueLayout
import Idealize.ShloMosaic.Lib.Pipeline.Value

noncomputable section

namespace Cert.KernelRows

open Cert.KernelIdeal Cert.KernelIdeal.Gen Cert.RowAttention
open Idealize.ShloMosaic Idealize.ShloMosaic.ValueIdx

/-- The shifted exponentials of the slab at (hh, w, u), from its scores and its row maxima: the maximum is taken once
    more against −∞, spread along the row, subtracted, and the exponential applied. -/
theorem expSlab_apply (v34 : FVec Ideal S16x64x64 .f32) (v35 : FVec Ideal S16x64 .f32)
    (h1 : S16x64.ShapeCasts S16x64x1) (h2 : S16x64x1.Broadcasts S16x64x64)
    (S : Fin 64 → Fin 64 → EReal) (hh : Fin 16)
    (hS : ∀ w u, v34 (ix3 hh w u) = S w u)
    (hM : ∀ w, v35 (ix2 hh w) = (Finset.univ : Finset (Fin 64)).fold max negInf (S w)) (w u : Fin 64) :
    exp (subf v34 (broadcastTo S16x64x64 (shapeCast S16x64x1
        (maximumf (broadcast S16x64 (Scalar.ofBits (F := Ideal) .f32 0xFF800000#32)) v35) h1) h2)) (ix3 hh w u)
      = expShift S w u := by
  show Ideal.exp (v34 (ix3 hh w u) - broadcastTo S16x64x64 (shapeCast S16x64x1
        (maximumf (broadcast S16x64 (Scalar.ofBits (F := Ideal) .f32 0xFF800000#32)) v35) h1) h2 (ix3 hh w u)) = _
  rw [hS, column_apply]
  show Ideal.exp (S w u - max negInf (v35 (ix2 hh w))) = _
  rw [hM]
  rfl

/-- The stored block at (0, hh, w, d), from the slab's scores `S`, row maxima and values `V` of slab row `hh`: the softmax of the
    scores mixes the values, and the result is projected by the output weights and bias. -/
theorem attend_apply (v11 : FVec Ideal S256x256 .bf16) (v15 : Vec Ideal S256 .f32) (v33 : FVec Ideal S16x64x256 .bf16)
    (v34 : FVec Ideal S16x64x64 .f32) (v35 : FVec Ideal S16x64 .f32)
    (S : Fin 64 → Fin 64 → EReal) (V : Fin 64 → Fin 256 → EReal) (hh : Fin 16)
    (hS : ∀ w u, v34 (ix3 hh w u) = S w u)
    (hM : ∀ w, v35 (ix2 hh w) = (Finset.univ : Finset (Fin 64)).fold max negInf (S w))
    (hV : ∀ u c, v33 (ix3 hh u c) = V u c) (w : Fin 64) (d : Fin 256) :
    k0_pay1 (F := Ideal) v11 v15 v33 v34 v35 (Scalar.ofBits .f32 0xFF800000#32) (ix4 (0 : Fin 1) hh w d)
      = proj (mix (softmax S) V) (fun c d => v11 (ix2 c d)) (vec v15) w d := by
  unfold k0_pay1
  refine (shapeCast_abc_1abc_apply _ _ 0 hh w d).trans ?_
  refine (unflatten_apply _ _ hh w d).trans ?_
  refine (addf_apply _ _ _).trans ?_
  rw [flatDot_apply, biasRow_apply]
  unfold proj
  refine congrArg₂ (· + ·) (Finset.sum_congr rfl fun c _ => ?_) rfl
  refine congrArg₂ (· * ·) ?_ rfl
  refine (truncf_apply (φ := .f32) (ψ := .bf16) _ _ _).trans ?_
  refine (flatten_apply _ _ hh w c).trans ?_
  refine (mixDot_apply _ _ hh w c).trans ?_
  unfold mix
  refine Finset.sum_congr rfl fun u _ => ?_
  refine congrArg₂ (· * ·) ?_ (hV u c)
  refine (truncf_apply (φ := .f32) (ψ := .bf16) _ _ _).trans ?_
  refine (divf_apply _ _ _).trans ?_
  unfold softmax
  refine congrArg₂ Ideal.div (expSlab_apply v34 v35 _ _ S hh hS hM w u) ?_
  refine (column_apply _ _ _ hh w u).trans ?_
  refine (laneSum_apply _ _ _ _ hh w).trans ?_
  unfold rowSum
  exact Finset.sum_congr rfl fun u' _ => expSlab_apply v34 v35 _ _ S hh hS hM w u'

/-- The stored block at (0, hh, w, d) is the row attention function of slab row `hh` at (w, d). -/
theorem payload_eq (x0 : Vec Ideal S1x16x64x256 .f32)
    (wq : Vec Ideal S256x256 .f32) (bq : Vec Ideal S256 .f32)
    (wk : Vec Ideal S256x256 .f32) (bk : Vec Ideal S256 .f32)
    (wv : Vec Ideal S256x256 .f32) (bv : Vec Ideal S256 .f32)
    (wo : Vec Ideal S256x256 .f32) (bo : Vec Ideal S256 .f32)
    (hh : Fin 16) (w : Fin 64) (d : Fin 256) :
    k0_pay1 (F := Ideal) (k0_pay3 wo) bo (k0_pay4 x0 wv bv) (k0_pay5 x0 wq wk bq bk) (k0_pay6 x0 wq wk bq bk)
        (Scalar.ofBits .f32 0xFF800000#32) (ix4 (0 : Fin 1) hh w d)
      = rowOut (slabRow x0 hh) (mat wq) (vec bq) (mat wk) (vec bk) (mat wv) (vec bv) (mat wo) (vec bo) w d := by
  refine (attend_apply (k0_pay3 wo) bo (k0_pay4 x0 wv bv) (k0_pay5 x0 wq wk bq bk) (k0_pay6 x0 wq wk bq bk)
    (scores (proj (slabRow x0 hh) (mat wq) (vec bq)) (proj (slabRow x0 hh) (mat wk) (vec bk)))
    (proj (slabRow x0 hh) (mat wv) (vec bv)) hh
    (fun w u => scoresSlab_apply x0 wq wk bq bk hh w u)
    (fun w => maxSlab_apply x0 wq wk bq bk hh w)
    (fun u c => valuesSlab_apply x0 wv bv hh u c) w d).trans ?_
  rfl

end Cert.KernelRows

end
-- ==== Proof.BlocksToArray.lean ====
/-
  From the kernel's blocks to the whole output array.

  The kernel runs on a grid of 32 × 4 points. At the point with coordinates (b, j) it holds the slab of the input made of
  the 16 image rows 16·j … 16·j + 15 of batch entry b, together with the whole weight and bias arrays, and it writes back
  the slab of the output at the same place. Row hh of the slab is row 16·j + hh of batch entry b, so by the entry-by-entry
  description of a block, what the point writes at (0, hh, w, d) is the row attention function of row (b, 16·j + hh) of the
  input at (w, d): the block at that point of the specification's whole array. The 128 slabs tile the output, so after the
  run the output array is the specification's whole array of the nine argument arrays.
-/
import proofs.«112196_j74698071212469_1_alg».proof.Proof.Gen.KernelIdeal.Value
import proofs.«112196_j74698071212469_1_alg».proof.Proof.RowAttention
import proofs.«112196_j74698071212469_1_alg».proof.Proof.KernelRows
import Idealize.ShloMosaic.Lib.Pipeline.Value
import Idealize.ShloMosaic.Lib.ValueIdx

noncomputable section

namespace Cert.KernelArray

open Cert.KernelIdeal Cert.KernelIdeal.Gen Cert.RowAttention Cert.KernelRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Zero offsets, however spelt. -/
theorem zero4 : (![0, 0, 0, 0] : Fin 4 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 128 grid points: the input slab's and the output slab's block indices at point
    t are (t / 4, t % 4, 0, 0), and every weight and bias window stays at block index 0. -/
theorem index_facts : ∀ t : Fin cfg0.N,
    win0_9.index t (0 : Fin 4) = t.val / 4 ∧ win0_9.index t (1 : Fin 4) = t.val % 4
    ∧ win0_9.index t (2 : Fin 4) = 0 ∧ win0_9.index t (3 : Fin 4) = 0
    ∧ win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- One entry of a block against one entry of the whole array. If the slab x0 holds, as its row hh, the row (b, r + hh) of
    the array X, and the weight and bias blocks are the whole arrays, then the block's entry at y is the whole array's entry
    at the index i that has batch b, row r + (y 1), and the position and channel of y. -/
theorem block_entry (X : S32x64x64x256.Idx → EReal)
    (Wq : S256x256.Idx → EReal) (Bq : S256.Idx → EReal) (Wk : S256x256.Idx → EReal) (Bk : S256.Idx → EReal)
    (Wv : S256x256.Idx → EReal) (Bv : S256.Idx → EReal) (Wo : S256x256.Idx → EReal) (Bo : S256.Idx → EReal)
    (x0 : Vec Ideal S1x16x64x256 .f32)
    (wq : Vec Ideal S256x256 .f32) (bq : Vec Ideal S256 .f32)
    (wk : Vec Ideal S256x256 .f32) (bk : Vec Ideal S256 .f32)
    (wv : Vec Ideal S256x256 .f32) (bv : Vec Ideal S256 .f32)
    (wo : Vec Ideal S256x256 .f32) (bo : Vec Ideal S256 .f32)
    (hwq : wq = Wq) (hbq : bq = Bq) (hwk : wk = Wk) (hbk : bk = Bk)
    (hwv : wv = Wv) (hbv : bv = Bv) (hwo : wo = Wo) (hbo : bo = Bo)
    (b : Fin 32) (r : Nat) (hr : r + 16 ≤ 64)
    (hx : ∀ (hh : Fin 16) (w : Fin 64) (k : Fin 256),
      x0 (ix4 (0 : Fin 1) hh w k) = X (ix4 b (⟨r + hh.val, by omega⟩ : Fin 64) w k))
    (y : S1x16x64x256.Idx) (i : S32x64x64x256.Idx)
    (hi0 : (i 0).val = b.val) (hi1 : (i 1).val = r + (y 1).val) (hi2 : (i 2).val = (y 2).val) (hi3 : (i 3).val = (y 3).val) :
    k0_pay1 (F := Ideal) (k0_pay3 wo) bo (k0_pay4 x0 wv bv) (k0_pay5 x0 wq wk bq bk) (k0_pay6 x0 wq wk bq bk)
        (Scalar.ofBits .f32 0xFF800000#32) y
      = whole X Wq Bq Wk Bk Wv Bv Wo Bo i := by
  subst hwq hbq hwk hbk hwv hbv hwo hbo
  obtain ⟨u, hh, w, d, rfl⟩ : ∃ (u : Fin 1) (hh : Fin 16) (w : Fin 64) (d : Fin 256), y = ix4 u hh w d :=
    ⟨y 0, y 1, y 2, y 3, eq_ix4 y⟩
  obtain rfl : u = 0 := Subsingleton.elim _ _
  obtain ⟨i0, i1, i2, i3, rfl⟩ : ∃ (i0 : Fin 32) (i1 : Fin 64) (i2 : Fin 64) (i3 : Fin 256), i = ix4 i0 i1 i2 i3 :=
    ⟨i 0, i 1, i 2, i 3, eq_ix4 i⟩
  obtain rfl : i0 = b := Fin.ext hi0
  obtain rfl : i1 = (⟨r + hh.val, Nat.lt_of_lt_of_le (Nat.add_lt_add_left hh.isLt r) hr⟩ : Fin 64) := Fin.ext hi1
  obtain rfl : i2 = w := Fin.ext hi2
  obtain rfl : i3 = d := Fin.ext hi3
  rw [payload_eq, whole_apply]
  exact congrArg (fun R => rowOut R (mat wq) (vec bq) (mat wk) (vec bk) (mat wv) (vec bv) (mat wo) (vec bo) i2 i3)
    (funext fun w' => funext fun k => hx hh w' k)

/-- The input window's block at point t is the slab of the 16 rows 16·(t % 4) … 16·(t % 4) + 15 of batch entry t / 4:
    an element of a block sits in the array, on each axis, at the block index times the block's size plus its own coordinate. -/
theorem slab_apply (c : Dev nD) (t : Fin cfg0.N) (x : S1x16x64x256.Idx) (k : S32x64x64x256.Idx)
    (hk0 : (k 0).val = t.val / 4) (hk1 : (k 1).val = 16 * (t.val % 4) + (x 1).val)
    (hk2 : (k 2).val = (x 2).val) (hk3 : (k 3).val = (x 3).val) :
    (iblk m c 0 t : Vec Ideal S1x16x64x256 .f32) x
      = (m ((c : Thread nD τ).loc main_arg0) : S32x64x64x256.Idx → EReal) k := by
  obtain ⟨-, -, -, -, e0, e1, e2, e3, -⟩ := index_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (x 0).val = (k 0).val; have hx : (x 0).val < 1 := (x 0).isLt; rw [e0, hk0]; omega
  | ⟨1, _⟩ => show win0_0.index t (1 : Fin 4) * 16 + 1 * (x 1).val = (k 1).val; rw [e1, hk1]; omega
  | ⟨2, _⟩ => show win0_0.index t (2 : Fin 4) * 64 + 1 * (x 2).val = (k 2).val; rw [e2, hk2]; omega
  | ⟨3, _⟩ => show win0_0.index t (3 : Fin 4) * 256 + 1 * (x 3).val = (k 3).val; rw [e3, hk3]; omega

/-- The query weights' block, at every point, is the whole array (its block index is 0 on both axes). -/
theorem wq_block (c : Dev nD) (t : Fin cfg0.N) :
    (iblk m c 1 t : Vec Ideal S256x256 .f32) = (m ((c : Thread nD τ).loc main_arg1) : S256x256.Idx → EReal) := by
  obtain ⟨-, -, -, -, -, -, -, -, e0, e1, -⟩ := index_facts t
  funext x
  unfold iblk
  rw [View.read_apply]
  show V m c main_arg1 _ = m (c.tc.loc main_arg1) _
  unfold V
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The query bias's block, at every point, is the whole array. -/
theorem bq_block (c : Dev nD) (t : Fin cfg0.N) :
    (iblk m c 2 t : Vec Ideal S256 .f32) = (m ((c : Thread nD τ).loc main_arg2) : S256.Idx → EReal) := by
  obtain ⟨-, -, -, -, -, -, -, -, -, -, e0, -⟩ := index_facts t
  funext x
  unfold iblk
  rw [View.read_apply]
  show V m c main_arg2 _ = m (c.tc.loc main_arg2) _
  unfold V
  congr 1
  funext a
  apply Fin.ext
  match a with
  | ⟨0, _⟩ => show win0_2.index t (0 : Fin 1) * 256 + 1 * (x 0).val = (x 0).val; rw [e0]; omega

/-- The key weights' block, at every point, is the whole array. -/
theorem wk_block (c : Dev nD) (t : Fin cfg0.N) :
    (iblk m c 3 t : Vec Ideal S256x256 .f32) = (m ((c : Thread nD τ).loc main_arg3) : S256x256.Idx → EReal) := by
  obtain ⟨-, -, -, -, -, -, -, -, -, -, -, e0, e1, -⟩ := index_facts t
  funext x
  unfold iblk
  rw [View.read_apply]
  show V m c main_arg3 _ = m (c.tc.loc main_arg3) _
  unfold V
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The key bias's block, at every point, is the whole array. -/
theorem bk_block (c : Dev nD) (t : Fin cfg0.N) :
    (iblk m c 4 t : Vec Ideal S256 .f32) = (m ((c : Thread nD τ).loc main_arg4) : S256.Idx → EReal) := by
  obtain ⟨-, -, -, -, -, -, -, -, -, -, -, -, -, e0, -⟩ := index_facts t
  funext x
  unfold iblk
  rw [View.read_apply]
  show V m c main_arg4 _ = m (c.tc.loc main_arg4) _
  unfold V
  congr 1
  funext a
  apply Fin.ext
  match a with
  | ⟨0, _⟩ => show win0_4.index t (0 : Fin 1) * 256 + 1 * (x 0).val = (x 0).val; rw [e0]; omega

/-- The value weights' block, at every point, is the whole array. -/
theorem wv_block (c : Dev nD) (t : Fin cfg0.N) :
    (iblk m c 5 t : Vec Ideal S256x256 .f32) = (m ((c : Thread nD τ).loc main_arg5) : S256x256.Idx → EReal) := by
  obtain ⟨-, -, -, -, -, -, -, -, -, -, -, -, -, -, e0, e1, -⟩ := index_facts t
  funext x
  unfold iblk
  rw [View.read_apply]
  show V m c main_arg5 _ = m (c.tc.loc main_arg5) _
  unfold V
  congr 1
  funext a
  apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

/-- The value bias's block, at every point, is the whole array. -/
theorem bv_block (c : Dev nD) (t : Fin cfg0.N) :
    (iblk m c 6 t : Vec Ideal S256 .f32) = (m ((c : Thread nD τ).loc main_arg6) : S256.Idx → EReal) := by
  obtain ⟨-, -, -, -, -, -, -, -, -, -, -, -, -, -, -, -, e0, -⟩ := index_facts t
  funext x
  unfold iblk
  rw [View.read_apply]
  show V m c main_arg6 _ = m (c.tc.loc main_arg6) _
  unfold V
  congr 1
  funext a
  apply Fin.ext
  match a with
  | ⟨0, _⟩ => show win0_6.index t (0 : Fin 1) * 256 + 1 * (x 0).val = (x 0).val; rw [e0]; omega

/-- The output weights' block, at every point, is the whole array. -/
theorem wo_block (c : Dev nD) (t : Fin cfg0.N) :
    (iblk m c 7 t : Vec Ideal S256x256 .f32) = (m ((c : Thread nD τ).loc main_arg7) : S256x256.Idx → EReal) := by
  obtain ⟨-, -, -, -, -, -, -, -, -, -, -, -, -, -, -, -, -, e0, e1, -⟩ := index_facts t
  funext x
  unfold iblk
  rw [View.read_apply]
  show V m c main_arg7 _ = m (c.tc.loc main_arg7) _
  unfold V
  congr 1
  funext a
  apply Fin.ext
  match a with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega

/-- The output bias's block, at every point, is the whole array. -/
theorem bo_block (c : Dev nD) (t : Fin cfg0.N) :
    (iblk m c 8 t : Vec Ideal S256 .f32) = (m ((c : Thread nD τ).loc main_arg8) : S256.Idx → EReal) := by
  obtain ⟨-, -, -, -, -, -, -, -, -, -, -, -, -, -, -, -, -, -, -, e0⟩ := index_facts t
  funext x
  unfold iblk
  rw [View.read_apply]
  show V m c main_arg8 _ = m (c.tc.loc main_arg8) _
  unfold V
  congr 1
  funext a
  apply Fin.ext
  match a with
  | ⟨0, _⟩ => show win0_8.index t (0 : Fin 1) * 256 + 1 * (x 0).val = (x 0).val; rw [e0]; omega

/-- WHAT POINT t WRITES BACK is the block at t of the specification's whole array of the argument arrays. -/
theorem flushed_eq (c : Dev nD) (t : Fin cfg0.N) :
    (dats m 0 c).flushed 9 t = ((cfg0.win 9).blk t).view.read (Elt Ideal)
      (whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  rw [Value.flushed9]
  unfold Gen.out0_9
  rw [View.canon_unit_zero zero4]
  simp only [View.ld_unit_zero (S := S1x16x64x256) zero4, View.ld_unit_zero (S := S256x256) zero2, View.ld_unit_zero (S := S256) zero1]
  obtain ⟨e0, e1, e2, e3, -⟩ := index_facts t
  have hN : t.val < 128 := Nat.lt_of_lt_of_eq t.isLt N_0
  funext y
  refine block_entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t)
    (wq_block m c t) (bq_block m c t) (wk_block m c t) (bk_block m c t) (wv_block m c t) (bv_block m c t) (wo_block m c t) (bo_block m c t)
    (⟨t.val / 4, by omega⟩ : Fin 32) (16 * (t.val % 4)) (by omega)
    (fun hh w k => slab_apply m c t _ _ rfl rfl rfl rfl)
    ((cfg0.win 9).xinj (grid0.coords t) y) (((cfg0.win 9).blk t).view.emb y) ?_ ?_ ?_ ?_
  · show win0_9.index t (0 : Fin 4) * 1 + 1 * (y 0).val = t.val / 4
    have hy : (y 0).val < 1 := (y 0).isLt
    rw [e0]; omega
  · show win0_9.index t (1 : Fin 4) * 16 + 1 * (y 1).val = 16 * (t.val % 4) + (y 1).val
    rw [e1]; omega
  · show win0_9.index t (2 : Fin 4) * 64 + 1 * (y 2).val = (y 2).val
    rw [e2]; omega
  · show win0_9.index t (3 : Fin 4) * 256 + 1 * (y 3).val = (y 3).val
    rw [e3]; omega

/-- An index of the output array is in point t's block iff each coordinate is in the block's range on its axis. -/
theorem mem_blk (t : Fin cfg0.N) (i : S32x64x64x256.Idx) :
    i ∈ ((cfg0.win 9).blk t).view.set ↔ ∀ a : Fin 4, win0_9.index t a * S1x16x64x256.size a ≤ (i a).val
      ∧ (i a).val < win0_9.index t a * S1x16x64x256.size a + S1x16x64x256.size a := by
  show i ∈ ((View.whole main_v0).slice (win0_9.rect t)).set ↔ _
  rw [View.set_slice_whole, Rect.mem_set_unit]
  exact Iff.rfl

/-- THE BLOCKS TILE THE ARRAY: the index (b, h, w, d) is in the block of the point with coordinates (b, h / 16), the
    point number b · 4 + h / 16 in the grid's row-major order. -/
theorem cover (i : S32x64x64x256.Idx) :
    ∃ t : Fin cfg0.N, (cfg0.win 9).flush t = true ∧ i ∈ ((cfg0.win 9).blk t).view.set := by
  have h0 : (i 0).val < 32 := (i 0).isLt
  have h1 : (i 1).val < 64 := (i 1).isLt
  have h2 : (i 2).val < 64 := (i 2).isLt
  have h3 : (i 3).val < 256 := (i 3).isLt
  have hlt : (i 0).val * 4 + (i 1).val / 16 < cfg0.N := by rw [show cfg0.N = 128 from N_0]; omega
  obtain ⟨e0, e1, e2, e3, -⟩ := index_facts ⟨(i 0).val * 4 + (i 1).val / 16, hlt⟩
  refine ⟨⟨(i 0).val * 4 + (i 1).val / 16, hlt⟩, flush0_9 _, ?_⟩
  rw [mem_blk]
  intro a
  match a with
  | ⟨0, _⟩ =>
    show win0_9.index _ (0 : Fin 4) * 1 ≤ (i 0).val ∧ (i 0).val < win0_9.index _ (0 : Fin 4) * 1 + 1
    rw [e0]; dsimp only; omega
  | ⟨1, _⟩ =>
    show win0_9.index _ (1 : Fin 4) * 16 ≤ (i 1).val ∧ (i 1).val < win0_9.index _ (1 : Fin 4) * 16 + 16
    rw [e1]; dsimp only; omega
  | ⟨2, _⟩ =>
    show win0_9.index _ (2 : Fin 4) * 64 ≤ (i 2).val ∧ (i 2).val < win0_9.index _ (2 : Fin 4) * 64 + 64
    rw [e2]; omega
  | ⟨3, _⟩ =>
    show win0_9.index _ (3 : Fin 4) * 256 ≤ (i 3).val ∧ (i 3).val < win0_9.index _ (3 : Fin 4) * 256 + 256
    rw [e3]; omega

/-- THE ARRAY after the run is the specification's whole array of the nine argument arrays. -/
theorem final (c : Dev nD) :
    (dats m 0 c).arrAt 9 cfg0.N
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 9 _ (fun t _ => flushed_eq m c t) cover

/-- The kernel's run, read: the output array at the specification's whole array of the arguments, the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelArray

end
-- ==== Proof.lean ====
/-
  Self-attention along the width of an image, computed slab by slab by the kernel and on whole arrays by the reference:
  the two output arrays are equal on the extended reals.

  Both programs compute, for every row (b, h) of the input, the row attention function of Proof/RowAttention.lean:
  queries, keys and values are channel projections of the row, the scores are the channel inner products of queries and
  keys, the softmax is taken along the row from a maximum started at −∞, the values are mixed by it and projected out.
    · The reference does so on whole [32, 64, 64, ·] arrays, rows being batch axes of its products (Proof/ReferenceRows.lean).
    · The kernel does so on 16-row slabs, one grid point each, flattening a slab to 1024 positions for the projections and
      back for the attention; flattening keeps each position in its row (Proof/SlabLayout.lean, Proof/SlabProducts.lean,
      Proof/SlabStages.lean, Proof/KernelRows.lean), and the slabs tile the output array (Proof/BlocksToArray.lean).
  A change of float format is the identity on the extended reals and a product into a zero accumulator is the plain sum, so
  the two computations are the same sums, maxima, exponentials and quotients, term by term: no law beyond that is used and
  the finiteness of the inputs is never needed. The kernel's idealization rewrote nothing, so that conjunct is trivial; the
  three frames are the generated ones (the reference's is its generated run with the result dropped).
-/
import proofs.«112196_j74698071212469_1_alg».proof.Defs
import proofs.«112196_j74698071212469_1_alg».proof.Proof.Gen.Kernel
import proofs.«112196_j74698071212469_1_alg».proof.Proof.Gen.Kernel.Skeleton
import proofs.«112196_j74698071212469_1_alg».proof.Proof.Gen.Kernel.Launch
import proofs.«112196_j74698071212469_1_alg».proof.Proof.Gen.Kernel.Points
import proofs.«112196_j74698071212469_1_alg».proof.Proof.Gen.Kernel.Frame
import proofs.«112196_j74698071212469_1_alg».proof.Proof.Gen.KernelIdeal
import proofs.«112196_j74698071212469_1_alg».proof.Proof.Gen.KernelIdeal.Skeleton
import proofs.«112196_j74698071212469_1_alg».proof.Proof.Gen.KernelIdeal.Launch
import proofs.«112196_j74698071212469_1_alg».proof.Proof.Gen.KernelIdeal.Points
import proofs.«112196_j74698071212469_1_alg».proof.Proof.Gen.KernelIdeal.Frame
import proofs.«112196_j74698071212469_1_alg».proof.Proof.Gen.ReferenceIdeal
import proofs.«112196_j74698071212469_1_alg».proof.Proof.Gen.Pre_finite_inputs
import proofs.«112196_j74698071212469_1_alg».proof.Proof.Gen.KernelIdeal.Value
import proofs.«112196_j74698071212469_1_alg».proof.Proof.Gen.ReferenceIdeal.Run
import proofs.«112196_j74698071212469_1_alg».proof.Proof.Gen.ReferenceIdeal.Read
import proofs.«112196_j74698071212469_1_alg».proof.Proof.RowAttention
import proofs.«112196_j74698071212469_1_alg».proof.Proof.ReferenceRows
import proofs.«112196_j74698071212469_1_alg».proof.Proof.KernelRows
import proofs.«112196_j74698071212469_1_alg».proof.Proof.BlocksToArray
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments, both programs end with the output array equal to the row attention
    function of every row of the input: the kernel's slabs assemble to it, and the reference's stages compose to it. -/
theorem algebraic : Cert.algebraic_KernelIdeal_ReferenceIdeal := by
  intro m ρ m' ρ' _ hagree
  refine ⟨fun c => Cert.RowAttention.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceRows.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
